-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : IVec S1600000 32) (main_arg5 : IVec S1600000 32) (main_arg6 : FVec F S1600000 .f32) (main_arg7 : FVec F S128x128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg6
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 51
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibRowBlockDot.lean ====
/-
  A plain matrix product `x · W` as one function of the two arrays, and its blocks of rows.

  For `x` of `N × K` and `W` of `K × C` the product's entry at `(r, c)` is `∑ k, x (r, k) * W (k, c)` on the extended
  reals (`proj`). Two readings of it, generic in the extents. The host's `dot_general` of the whole arrays, with the
  dimension numbers of a plain product, is this function. And a block of `B` consecutive rows of it is the matrix
  unit's product, into a zero accumulator, of that block of rows of `x` with the whole of `W`: row `p` of block `b` is
  row `b * B + p` of the array, and the contraction runs over the same `K` terms. This is the step between a kernel
  that tiles the rows of a product over its grid and a reference that forms the product at once.
-/
import Idealize.ShloMosaic.PureOps.Ideal
import Idealize.ShloMosaic.Lib.ValueIdx
import proofs.«166251_j58059367907672_1_alg».proof.Proof.LibPlainDot

noncomputable section

namespace Idealize.ShloMosaic.RowBlockDot

open Idealize.ShloMosaic Idealize.ShloMosaic.ValueIdx

variable {N K C : Nat}

/-- The product: entry `(i 0, i 1)` is the sum over `k` of `x (i 0, k) * W (k, i 1)`. -/
def proj (x : (⟨2, ![N, K]⟩ : Shape).Idx → EReal) (W : (⟨2, ![K, C]⟩ : Shape).Idx → EReal) :
    (⟨2, ![N, C]⟩ : Shape).Idx → EReal :=
  fun i => ∑ k : Fin K, x (ix2 (n0 := N) (n1 := K) (i 0) k) * W (ix2 (n0 := K) (n1 := C) k (i 1))

/-- The product at named coordinates. -/
theorem proj_apply (x : (⟨2, ![N, K]⟩ : Shape).Idx → EReal) (W : (⟨2, ![K, C]⟩ : Shape).Idx → EReal)
    (r : Fin N) (c : Fin C) : proj x W (ix2 r c) = ∑ k : Fin K, x (ix2 r k) * W (ix2 k c) := rfl

/-- The host's product of the whole arrays is `proj`. -/
theorem dotGeneral_eq_proj (wf : DotDims.WF ⟨2, ![N, K]⟩ ⟨2, ![K, C]⟩ ⟨2, ![N, C]⟩ [1] [0] [0] [1] [] [])
    {φ₁ φ₂ : FTy} (prec : Option ContractPrecision) (sched : HostSchedule)
    (x : FVec Ideal ⟨2, ![N, K]⟩ φ₁) (W : FVec Ideal ⟨2, ![K, C]⟩ φ₂) :
    FloatOps.dotGeneral (PlainDot.dims N K C wf) prec sched x W = proj x W := by
  funext i
  obtain ⟨r, c, rfl⟩ : ∃ (r : Fin N) (c : Fin C), i = ix2 r c := ⟨i 0, i 1, eq_ix2 i⟩
  exact PlainDot.dotGeneral_apply wf prec sched x W r c

/-- Block `b` of `B` rows of the product: when `x0` holds rows `b * B …` of `X` and `x1` holds `W`, the matrix unit's
    product of `x0` and `x1` into a zero accumulator is, at `(p, q)`, the product at `(b * B + p, q)`. -/
theorem matmul_block {B : Nat} (wf : DotDims.WF ⟨2, ![B, K]⟩ ⟨2, ![K, C]⟩ ⟨2, ![B, C]⟩ [1] [0] [0] [1] [] [])
    {φ₁ φ₂ : FTy} (prec : Option ContractPrecision)
    (X : (⟨2, ![N, K]⟩ : Shape).Idx → EReal) (W : (⟨2, ![K, C]⟩ : Shape).Idx → EReal)
    (x0 : FVec Ideal ⟨2, ![B, K]⟩ φ₁) (x1 : FVec Ideal ⟨2, ![K, C]⟩ φ₂) (b : Nat)
    (hrow : ∀ p : Fin B, b * B + p.val < N)
    (h0 : ∀ (p : Fin B) (k : Fin K), x0 (ix2 p k) = X (ix2 ⟨b * B + p.val, hrow p⟩ k))
    (h1 : ∀ (k : Fin K) (q : Fin C), x1 (ix2 k q) = W (ix2 k q)) (p : Fin B) (q : Fin C) :
    FloatOps.matmul (PlainDot.dims B K C wf) prec x0 x1 (constant ⟨2, ![B, C]⟩ .f32 0x00000000#32) (ix2 p q)
      = proj X W (ix2 ⟨b * B + p.val, hrow p⟩ q) := by
  rw [PlainDot.matmul_zero_apply wf prec x0 x1 p q, proj_apply]
  exact Finset.sum_congr rfl fun k _ => by rw [h0 p k, h1 k q]

end Idealize.ShloMosaic.RowBlockDot

end
-- ==== Proof.KernelBlocks.lean ====
/-
  What the dense-projection kernel leaves in its two output arrays, at the exact-real instance.

  The grid has 20 points. At point `t` the body reads rows `5000 t … 5000 t + 4999` of `x` and the whole of each
  weight matrix, and writes, into rows `5000 t …` of each output, the product of that block of rows with the
  weight matrix (the narrowing of the operands to bf16 is the identity on exact reals, and the accumulator starts at
  zero). Row `p` of the block is row `5000 t + p` of the array, so what a point writes back is its block of rows of the
  whole-array projection `proj x W`; the 20 blocks of rows cover the array, which therefore ends holding `proj x W`.
-/
import proofs.«166251_j58059367907672_1_alg».proof.Proof.Gen.KernelIdeal.Frame
import proofs.«166251_j58059367907672_1_alg».proof.Proof.LibRowBlockDot
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.RowBlockDot

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the row-blocked windows (`x` and the two outputs) are at block `(t, 0)`, the
    weight matrices at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The payload stored into the first output's block: block `b` of rows of `proj X W`, when the loaded blocks are rows
    `5000 b …` of `X` and the whole of `W`. -/
theorem pay2_block (X : S100000x128.Idx → EReal) (W : S128x128.Idx → EReal) (b : Nat) (hb : b < 20)
    (x0 : Vec Ideal S5000x128 .f32) (x1 : Vec Ideal S128x128 .f32)
    (h0 : ∀ (y : S5000x128.Idx) (i : S100000x128.Idx), (i 0).val = b * 5000 + (y 0).val → (i 1).val = (y 1).val → x0 y = X i)
    (h1 : ∀ y : S128x128.Idx, x1 y = W y)
    (j : S5000x128.Idx) (i : S100000x128.Idx) (hi0 : (i 0).val = b * 5000 + (j 0).val) (hi1 : (i 1).val = (j 1).val) :
    k0_pay2 (F := Ideal) x0 x1 j = proj X W i := by
  obtain ⟨p, q, rfl⟩ : ∃ (p : Fin 5000) (q : Fin 128), j = ix2 p q := ⟨j 0, j 1, eq_ix2 j⟩
  have hrow : ∀ p : Fin 5000, b * 5000 + p.val < 100000 := fun p => by have := p.isLt; omega
  obtain rfl : i = ix2 ⟨b * 5000 + p.val, hrow p⟩ q := by
    funext a; apply Fin.ext
    match a with
    | ⟨0, _⟩ => exact hi0
    | ⟨1, _⟩ => exact hi1
  unfold k0_pay2 k0_pay1
  exact matmul_block Facts₀.dot_S5000x128_S128x128_S5000x128_1_0_0_1_n_n_wf none X W _ _ b hrow
    (fun p k => h0 _ _ rfl rfl) (fun k q => h1 _) p q

/-- The payload stored into the second output's block, likewise. -/
theorem pay3_block (X : S100000x128.Idx → EReal) (W : S128x128.Idx → EReal) (b : Nat) (hb : b < 20)
    (x0 : Vec Ideal S5000x128 .f32) (x2 : Vec Ideal S128x128 .f32)
    (h0 : ∀ (y : S5000x128.Idx) (i : S100000x128.Idx), (i 0).val = b * 5000 + (y 0).val → (i 1).val = (y 1).val → x0 y = X i)
    (h2 : ∀ y : S128x128.Idx, x2 y = W y)
    (j : S5000x128.Idx) (i : S100000x128.Idx) (hi0 : (i 0).val = b * 5000 + (j 0).val) (hi1 : (i 1).val = (j 1).val) :
    k0_pay3 (F := Ideal) x0 x2 j = proj X W i := by
  obtain ⟨p, q, rfl⟩ : ∃ (p : Fin 5000) (q : Fin 128), j = ix2 p q := ⟨j 0, j 1, eq_ix2 j⟩
  have hrow : ∀ p : Fin 5000, b * 5000 + p.val < 100000 := fun p => by have := p.isLt; omega
  obtain rfl : i = ix2 ⟨b * 5000 + p.val, hrow p⟩ q := by
    funext a; apply Fin.ext
    match a with
    | ⟨0, _⟩ => exact hi0
    | ⟨1, _⟩ => exact hi1
  unfold k0_pay3 k0_pay1
  exact matmul_block Facts₀.dot_S5000x128_S128x128_S5000x128_1_0_0_1_n_n_wf none X W _ _ b hrow
    (fun p k => h0 _ _ rfl rfl) (fun k q => h2 _) p q

/-- The block of `x` at point `t` is rows `5000 t …` of the array. -/
theorem iblk0_read (c : Dev nD) (t : Fin cfg0.N) (y : S5000x128.Idx) (i : S100000x128.Idx)
    (h0 : (i 0).val = t.val * 5000 + (y 0).val) (h1 : (i 1).val = (y 1).val) :
    (iblk m c 0 t : Vec Ideal S5000x128 .f32) y = (V m c main_arg0 : S100000x128.Idx → EReal) i := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The block of the first weight matrix at any point is the whole matrix. -/
theorem iblk1_read (c : Dev nD) (t : Fin cfg0.N) (y : S128x128.Idx) :
    (iblk m c 1 t : Vec Ideal S128x128 .f32) y = (V m c main_arg7 : S128x128.Idx → EReal) y := by
  obtain ⟨-, -, e0, e1, -⟩ := idx_facts t
  unfold iblk
  rw [View.read_apply]
  show V m c main_arg7 _ = V m c main_arg7 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The block of the second weight matrix at any point is the whole matrix. -/
theorem iblk2_read (c : Dev nD) (t : Fin cfg0.N) (y : S128x128.Idx) :
    (iblk m c 2 t : Vec Ideal S128x128 .f32) y = (V m c main_arg8 : S128x128.Idx → EReal) y := by
  obtain ⟨-, -, -, -, e0, e1, -⟩ := idx_facts t
  unfold iblk
  rw [View.read_apply]
  show V m c main_arg8 _ = V m c main_arg8 _
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- What point `t` writes back to the first output is block `t` of rows of `proj x W0`. -/
theorem flushed3_eq (c : Dev nD) (t : Fin cfg0.N) :
    (dats m 0 c).flushed 3 t = ((cfg0.win 3).blk t).view.read (Elt Ideal) (proj (V m c main_arg0) (V m c main_arg7)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x128) hz]
  obtain ⟨-, -, -, -, -, -, e0, e1, -⟩ := idx_facts t
  funext j
  rw [View.read_apply]
  refine pay2_block (V m c main_arg0) (V m c main_arg7) t.val (lt_of_lt_of_eq t.isLt N_0) _ _
    (iblk0_read m c t) (iblk1_read m c t) j _ ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- What point `t` writes back to the second output is block `t` of rows of `proj x W1`. -/
theorem flushed4_eq (c : Dev nD) (t : Fin cfg0.N) :
    (dats m 0 c).flushed 4 t = ((cfg0.win 4).blk t).view.read (Elt Ideal) (proj (V m c main_arg0) (V m c main_arg8)) := by
  show (cfg0.win 4).cut (grid0.coords t) ((dats m 0 c).after 4 t) = _
  rw [after0_4]
  unfold out0_4
  rw [View.canon_unit_zero hz]
  simp only [View.ld_unit_zero (S := S5000x128) hz, View.ld_unit_zero (S := S128x128) hz]
  obtain ⟨-, -, -, -, -, -, -, -, e0, e1⟩ := idx_facts t
  funext j
  rw [View.read_apply]
  refine pay3_block (V m c main_arg0) (V m c main_arg8) t.val (lt_of_lt_of_eq t.isLt N_0) _ _
    (iblk0_read m c t) (iblk2_read m c t) j _ ?_ ?_
  · show win0_4.index t (0 : Fin 2) * 5000 + 1 * (j 0).val = t.val * 5000 + (j 0).val; rw [e0]; omega
  · show win0_4.index t (1 : Fin 2) * 128 + 1 * (j 1).val = (j 1).val; rw [e1]; omega

/-- An index of the first output is in point `t`'s block iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0_0).slice (win0_3.rect t)).set ↔ _
  rw [View.set_slice_whole, Rect.mem_set_unit]
  exact Iff.rfl

/-- The same for the second output. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v0_1).slice (win0_4.rect t)).set ↔ _
  rw [View.set_slice_whole, Rect.mem_set_unit]
  exact Iff.rfl

/-- The first output after the run is `proj x W0`: row `r` is in the block of point `r / 5000`. -/
theorem final3 (c : Dev nD) : (dats m 0 c).arrAt 3 cfg0.N = proj (V m c main_arg0) (V m c main_arg7) :=
  (dats m 0 c).arrAt_eq_of_cover 3 _ (fun t _ => flushed3_eq m c t) fun i => by
    have hi0 : (i 0).val < 100000 := (i 0).isLt
    have hi1 : (i 1).val < 128 := (i 1).isLt
    have ht : (i 0).val / 5000 < cfg0.N := by rw [show cfg0.N = 20 from N_0]; omega
    obtain ⟨-, -, -, -, -, -, e0, e1, -⟩ := idx_facts ⟨(i 0).val / 5000, ht⟩
    refine ⟨⟨(i 0).val / 5000, ht⟩, flush0_3 _, ?_⟩
    rw [mem_blk3]
    intro a
    match a with
    | ⟨0, _⟩ =>
      show win0_3.index ⟨(i 0).val / 5000, ht⟩ (0 : Fin 2) * 5000 ≤ (i 0).val ∧ (i 0).val < win0_3.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_3.index ⟨(i 0).val / 5000, ht⟩ (1 : Fin 2) * 128 ≤ (i 1).val ∧ (i 1).val < win0_3.index ⟨(i 0).val / 5000, ht⟩ (1 : Fin 2) * 128 + 128
      rw [e1]; omega

/-- The second output after the run is `proj x W1`. -/
theorem final4 (c : Dev nD) : (dats m 0 c).arrAt 4 cfg0.N = proj (V m c main_arg0) (V m c main_arg8) :=
  (dats m 0 c).arrAt_eq_of_cover 4 _ (fun t _ => flushed4_eq m c t) fun i => by
    have hi0 : (i 0).val < 100000 := (i 0).isLt
    have hi1 : (i 1).val < 128 := (i 1).isLt
    have ht : (i 0).val / 5000 < cfg0.N := by rw [show cfg0.N = 20 from N_0]; omega
    obtain ⟨-, -, -, -, -, -, -, -, e0, e1⟩ := idx_facts ⟨(i 0).val / 5000, ht⟩
    refine ⟨⟨(i 0).val / 5000, ht⟩, flush0_4 _, ?_⟩
    rw [mem_blk4]
    intro a
    match a with
    | ⟨0, _⟩ =>
      show win0_4.index ⟨(i 0).val / 5000, ht⟩ (0 : Fin 2) * 5000 ≤ (i 0).val ∧ (i 0).val < win0_4.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_4.index ⟨(i 0).val / 5000, ht⟩ (1 : Fin 2) * 128 ≤ (i 1).val ∧ (i 1).val < win0_4.index ⟨(i 0).val / 5000, ht⟩ (1 : Fin 2) * 128 + 128
      rw [e1]; omega

end Cert.KernelIdeal.Hand

end
-- ==== Proof.KernelTail.lean ====
/-
  The host operations that follow the dense-projection kernel, as one function of the two projected arrays.

  After the kernel the program aggregates each projected array over its sparse support — the rows of the array
  gathered at the support's column indices (a negative index wrapped by the row count), each scaled by the edge's
  value, then summed into the rows the support's row indices name —, adds the two aggregates and the bias row, and
  takes the maximum with zero. `tail` is that chain as a function of the two projected arrays and the remaining
  arguments; whatever the region leaves in the buffers, the result buffer after the chain is `tail` of what the two
  output arrays and the argument buffers hold.
-/
import proofs.«166251_j58059367907672_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- One sparse aggregation: rows of `pre` gathered at the column indices (a negative one wrapped by 100000), scaled
    by the edge values, summed into the rows the row indices name, from zero. -/
def spmm (pre : (⟨S100000x128, .f32⟩ : BufTy).Contents (Elt F)) (rows cols : (⟨S1600000, .i32⟩ : BufTy).Contents (Elt F))
    (vals : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 pre
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The chain after the kernel: the two aggregates added, the bias row added to every row, the maximum with zero. -/
def tail (p0 p1 : (⟨S100000x128, .f32⟩ : BufTy).Contents (Elt F))
    (rows0 cols0 : (⟨S1600000, .i32⟩ : BufTy).Contents (Elt F)) (vals0 : (⟨S1600000, .f32⟩ : BufTy).Contents (Elt F))
    (rows1 cols1 : (⟨S1600000, .i32⟩ : BufTy).Contents (Elt F)) (vals1 : (⟨S1600000, .f32⟩ : BufTy).Contents (Elt F))
    (b : (⟨S128, .f32⟩ : BufTy).Contents (Elt F)) : (⟨S100000x128, .f32⟩ : BufTy).Contents (Elt F) :=
  maximumf (addf (addf (spmm p0 rows0 cols0 vals0) (spmm p1 rows1 cols1 vals1))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

set_option maxRecDepth 8192 in
set_option maxHeartbeats 2000000 in
/-- From any buffer contents `W`, the result buffer after the chain's operations is `tail` of what `W` holds in the
    two projected arrays and in the argument buffers. -/
theorem tail_after (W : Valuation τ sig (Elt F)) :
    StableHlo.after (List.flatten [hostOps1, hostOps1_1]) W (Proc.devRef .tc main_v31)
      = tail (W (Proc.devRef .tc main_v0_0)) (W (Proc.devRef .tc main_v0_1))
          (W (Proc.devRef .tc main_arg1)) (W (Proc.devRef .tc main_arg2)) (W (Proc.devRef .tc main_arg3))
          (W (Proc.devRef .tc main_arg4)) (W (Proc.devRef .tc main_arg5)) (W (Proc.devRef .tc main_arg6))
          (W (Proc.devRef .tc main_arg9)) := by
  simp only [hostOps1, hostOps1_1, List.flatten_cons, List.flatten_nil, List.append_nil, List.cons_append, List.nil_append]
  after_results_simp <;> rfl

end Cert.KernelIdeal.Hand

end
-- ==== Proof.KernelRun.lean ====
/-
  The kernel program's run with its result named.

  When the region ends, the two output arrays hold the projections `proj x W0` and `proj x W1` and every other
  buffer is as it was launched. The chain of host operations after the region reads the two arrays and the argument
  buffers only, so the result buffer ends at `tail` of the two projections and the arguments, and the argument buffers
  end unchanged.
-/
import proofs.«166251_j58059367907672_1_alg».proof.Proof.KernelBlocks
import proofs.«166251_j58059367907672_1_alg».proof.Proof.KernelTail

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.RowBlockDot

variable (m : (ℓ : Loc nD τ sig) → Buf (Elt Ideal) ℓ) (ρ : Dev nD → PrngReg)

/-- The buffer contents when the region ends: the pipeline's arrays as the write-backs leave them, every other buffer
    as launched. -/
def exitVal (c : Dev nD) : Valuation τ sig (Elt Ideal) :=
  Pipeline.withArrays (cfgs 0).spec c (V0 m c) fun w => (dats m 0 c).arrAt w (cfgs 0).N

theorem exit_v0_0 (c : Dev nD) : exitVal m c (Proc.devRef .tc main_v0_0) = proj (V m c main_arg0) (V m c main_arg7) :=
  (Pipeline.withArrays_arr spec0 launch0.win.arr_inj c _ _ 3).trans (final3 m c)

theorem exit_v0_1 (c : Dev nD) : exitVal m c (Proc.devRef .tc main_v0_1) = proj (V m c main_arg0) (V m c main_arg8) :=
  (Pipeline.withArrays_arr spec0 launch0.win.arr_inj c _ _ 4).trans (final4 m c)

theorem exit_arg1 (c : Dev nD) : exitVal m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem exit_arg2 (c : Dev nD) : exitVal m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem exit_arg3 (c : Dev nD) : exitVal m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem exit_arg4 (c : Dev nD) : exitVal m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem exit_arg5 (c : Dev nD) : exitVal m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem exit_arg6 (c : Dev nD) : exitVal m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem exit_arg9 (c : Dev nD) : exitVal m c (Proc.devRef .tc main_arg9) = m ((c.tc : Thread nD τ).loc main_arg9) :=
  (Pipeline.withArrays_of_ne _ c (V0 m c) _ main_arg9 (by exact (by decide : ∀ w, Pipeline.arrRef spec0 w ≠ main_arg9))).trans (V_main_arg9 m c)

/-- The result buffer after the chain that follows the region. -/
theorem tail_value (c : Dev nD) :
    Pipeline.afterTail₀ cfgs (dats m) 0 (V0 m) [hostOps1, hostOps1_1] c main_v31
      = tail (proj (m ((c.tc : Thread nD τ).loc main_arg0)) (m ((c.tc : Thread nD τ).loc main_arg7)))
          (proj (m ((c.tc : Thread nD τ).loc main_arg0)) (m ((c.tc : Thread nD τ).loc main_arg8)))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg9)) := by
  show StableHlo.after (List.flatten [hostOps1, hostOps1_1]) (exitVal m c) (Proc.devRef .tc main_v31) = _
  rw [tail_after, exit_v0_0, exit_v0_1, exit_arg1, exit_arg2, exit_arg3, exit_arg4, exit_arg5, exit_arg6, exit_arg9]
  rfl

/-- The run: every weakly fair execution terminates with the result at `tail` of the two projections of the arguments,
    the arguments unchanged. -/
theorem run_value : θ_run defs (onTc (τ := τ) (main (F := Ideal))) ⟨m, fun _ => 0, ρ⟩ fun r => ∀ c : Dev nD,
      r.2.mem ((c.tc : Thread nD τ).loc main_v31)
          = tail (proj (m ((c.tc : Thread nD τ).loc main_arg0)) (m ((c.tc : Thread nD τ).loc main_arg7)))
              (proj (m ((c.tc : Thread nD τ).loc main_arg0)) (m ((c.tc : Thread nD τ).loc main_arg8)))
              (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v31 (Pipeline.mem_restRefs_of main_v31 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 1).trans (((dats m 0 c).arrAt_in 1 rfl _).trans ((A_eq m c 1).trans (V_main_arg7 m c))),
      ((h c).1 2).trans (((dats m 0 c).arrAt_in 2 rfl _).trans ((A_eq m c 2).trans (V_main_arg8 m c))),
      ((h c).2 main_arg9 (Pipeline.mem_restRefs_of main_arg9 (by decide) (by decide))).trans (W_main_arg9 m (dats m) c)⟩)
    (run_main m ρ)

end Cert.KernelIdeal.Hand

end
-- ==== Proof.RefValue.lean ====
/-
  The reference's result as the same chain of the two projections.

  The reference multiplies `x` by each weight matrix with the host's `dot_general` and then runs the chain the
  kernel's program runs after its region: each product aggregated over its sparse support, the aggregates and the bias
  row added, the maximum with zero. The host's product of the whole arrays is the projection `proj`, so the
  reference's result is `tail` of the two projections of its arguments.
-/
import proofs.«166251_j58059367907672_1_alg».proof.Proof.Gen.ReferenceIdeal.Run
import proofs.«166251_j58059367907672_1_alg».proof.Proof.LibRowBlockDot

noncomputable section

open Idealize.ShloMosaic Idealize.ShloMosaic.TcCoe Idealize.SL.Sem Idealize.ShloMosaic.StableHlo

namespace Cert.ReferenceIdeal.Hand

open Cert.ReferenceIdeal Cert.ReferenceIdeal.Gen Idealize.ShloMosaic.RowBlockDot

section
variable {F : FTy → Type} [FloatOps F]

/-- One sparse aggregation: rows of `pre` gathered at the column indices (a negative one wrapped by 100000), scaled
    by the edge values, summed into the rows the row indices name, from zero. -/
def spmm (pre : (⟨S100000x128, .f32⟩ : BufTy).Contents (Elt F)) (rows cols : (⟨S1600000, .i32⟩ : BufTy).Contents (Elt F))
    (vals : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 pre
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The chain after the products: the two aggregates added, the bias row added to every row, the maximum with zero. -/
def tail (p0 p1 : (⟨S100000x128, .f32⟩ : BufTy).Contents (Elt F))
    (rows0 cols0 : (⟨S1600000, .i32⟩ : BufTy).Contents (Elt F)) (vals0 : (⟨S1600000, .f32⟩ : BufTy).Contents (Elt F))
    (rows1 cols1 : (⟨S1600000, .i32⟩ : BufTy).Contents (Elt F)) (vals1 : (⟨S1600000, .f32⟩ : BufTy).Contents (Elt F))
    (b : (⟨S128, .f32⟩ : BufTy).Contents (Elt F)) : (⟨S100000x128, .f32⟩ : BufTy).Contents (Elt F) :=
  maximumf (addf (addf (spmm p0 rows0 cols0 vals0) (spmm p1 rows1 cols1 vals1))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

end

/-- The host's product of `x` with a weight matrix is the projection. -/
theorem host_proj (x : FVec Ideal S100000x128 .f32) (W : FVec Ideal S128x128 .f32) :
    Host.dotGeneral (F := Ideal) dot_S100000x128_S128x128_S100000x128_1_0_0_1_n_n none x W = proj x W :=
  dotGeneral_eq_proj Facts₀.dot_S100000x128_S128x128_S100000x128_1_0_0_1_n_n_wf none .single x W

/-- The reference's run with its result read as `tail` of the two projections of the arguments. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
          = tail (proj (m ((c.tc : Thread nD τ).loc main_arg0)) (m ((c.tc : Thread nD τ).loc main_arg7)))
              (proj (m ((c.tc : Thread nD τ).loc main_arg0)) (m ((c.tc : Thread nD τ).loc main_arg8)))
              (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by rw [host_proj, host_proj]; rfl), (h c).2⟩)
    (Cert.ReferenceIdeal.Value.run (F := Ideal) m ρ)

end Cert.ReferenceIdeal.Hand

end
-- ==== Proof.TailsAgree.lean ====
/-
  The chain of host operations after the products is the same function in the two programs: the same operations, in
  the same order, with the same dimension numbers, shapes and literals.
-/
import proofs.«166251_j58059367907672_1_alg».proof.Proof.KernelTail
import proofs.«166251_j58059367907672_1_alg».proof.Proof.RefValue

noncomputable section

open Idealize.ShloMosaic

namespace Cert.Hand

variable {F : FTy → Type} [FloatOps F]

/-- The reference's chain and the kernel program's chain agree on every input. -/
theorem tail_agree
    (p0 p1 : (⟨Cert.ReferenceIdeal.S100000x128, .f32⟩ : BufTy).Contents (Elt F))
    (rows0 cols0 : (⟨Cert.ReferenceIdeal.S1600000, .i32⟩ : BufTy).Contents (Elt F))
    (vals0 : (⟨Cert.ReferenceIdeal.S1600000, .f32⟩ : BufTy).Contents (Elt F))
    (rows1 cols1 : (⟨Cert.ReferenceIdeal.S1600000, .i32⟩ : BufTy).Contents (Elt F))
    (vals1 : (⟨Cert.ReferenceIdeal.S1600000, .f32⟩ : BufTy).Contents (Elt F))
    (b : (⟨Cert.ReferenceIdeal.S128, .f32⟩ : BufTy).Contents (Elt F)) :
    Cert.ReferenceIdeal.Hand.tail p0 p1 rows0 cols0 vals0 rows1 cols1 vals1 b
      = Cert.KernelIdeal.Hand.tail p0 p1 rows0 cols0 vals0 rows1 cols1 vals1 b := rfl

end Cert.Hand

end
-- ==== Proof.lean ====
/-
  The kernel program and the reference compute one function at the exact-real instance.

  The kernel program projects `x` by the two weight matrices inside a tiled kernel — 20 blocks of 5000 rows, each block
  of each output the product of the block of rows with the whole weight matrix — and then, on the host, aggregates
  each projection over its sparse support, adds the aggregates and the bias and takes the maximum with zero. The
  reference forms the two projections with the host's product of the whole arrays and then runs the same chain. A
  block of rows of a product is the product of the block of rows, the 20 blocks cover the array, and narrowing an
  operand to bf16 is the identity on exact reals: both programs' projections are `∑ k, x (r, k) * W (k, c)`, and the
  chains after them are the same operations. No law of the extended reals beyond reading the sums is used, so the
  finiteness precondition is never opened.

  The three frames are the generated ones (the reference's is its generated run with the result dropped), and the
  idealization rewrote no operation, so there is nothing to preserve.
-/
import proofs.«166251_j58059367907672_1_alg».proof.Defs
import proofs.«166251_j58059367907672_1_alg».proof.Proof.Gen.Kernel
import proofs.«166251_j58059367907672_1_alg».proof.Proof.Gen.Kernel.Skeleton
import proofs.«166251_j58059367907672_1_alg».proof.Proof.Gen.Kernel.Launch
import proofs.«166251_j58059367907672_1_alg».proof.Proof.Gen.Kernel.Points
import proofs.«166251_j58059367907672_1_alg».proof.Proof.Gen.Kernel.Frame
import proofs.«166251_j58059367907672_1_alg».proof.Proof.Gen.KernelIdeal
import proofs.«166251_j58059367907672_1_alg».proof.Proof.Gen.KernelIdeal.Skeleton
import proofs.«166251_j58059367907672_1_alg».proof.Proof.Gen.KernelIdeal.Launch
import proofs.«166251_j58059367907672_1_alg».proof.Proof.Gen.KernelIdeal.Points
import proofs.«166251_j58059367907672_1_alg».proof.Proof.Gen.KernelIdeal.Frame
import proofs.«166251_j58059367907672_1_alg».proof.Proof.Gen.ReferenceIdeal
import proofs.«166251_j58059367907672_1_alg».proof.Proof.Gen.Pre_finite_inputs
import proofs.«166251_j58059367907672_1_alg».proof.Proof.Gen.ReferenceIdeal.Run
import proofs.«166251_j58059367907672_1_alg».proof.Proof.KernelRun
import proofs.«166251_j58059367907672_1_alg».proof.Proof.RefValue
import proofs.«166251_j58059367907672_1_alg».proof.Proof.TailsAgree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the shared chain applied to the two projections of the (agreeing) arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  obtain ⟨e0, e1, e2, e3, e4, e5, e6, e7, e8, e9⟩ := hagree c
  rw [e0, e1, e2, e3, e4, e5, e6, e7, e8, e9]
  exact Cert.Hand.tail_agree _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
